-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x20000000 : Shape := ⟨2, ![2, 20000000]⟩
abbrev S20000000 : Shape := ⟨1, ![20000000]⟩
abbrev S1000000 : Shape := ⟨1, ![1000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S2x20000000 32) (main_arg1 : FVec F S20000000 .f32) (main_arg2 : IVec S1000000 1) : IVec S_ 1 :=
  let main_v0 : FVec F S20000000 .f32 := Host.absf main_arg1
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S2x20000000 : Shape := ⟨2, ![2, 20000000]⟩
abbrev S20000000 : Shape := ⟨1, ![20000000]⟩
abbrev S1000000 : Shape := ⟨1, ![1000000]⟩
abbrev S1x20000000 : Shape := ⟨2, ![1, 20000000]⟩
abbrev S_ : Shape := ⟨0, ![]⟩
abbrev S20000000x1 : Shape := ⟨2, ![20000000, 1]⟩
abbrev S250x80000 : Shape := ⟨2, ![250, 80000]⟩
abbrev S250x3200 : Shape := ⟨2, ![250, 3200]⟩

abbrev nBuf : Space → Nat
  | .hbm => 32
  | .vmem => 8
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S1000000, .i1⟩
  | .hbm, ⟨3, _⟩ => ⟨S1000000, .i1⟩
  | .hbm, ⟨4, _⟩ => ⟨S1000000, .f32⟩
  | .hbm, ⟨5, _⟩ => ⟨S1x20000000, .i32⟩
  | .hbm, ⟨6, _⟩ => ⟨S20000000, .i32⟩
  | .hbm, ⟨7, _⟩ => ⟨S_, .i32⟩
  | .hbm, ⟨8, _⟩ => ⟨S20000000, .i32⟩
  | .hbm, ⟨9, _⟩ => ⟨S20000000, .i1⟩
  | .hbm, ⟨10, _⟩ => ⟨S_, .i32⟩
  | .hbm, ⟨11, _⟩ => ⟨S20000000, .i32⟩
  | .hbm, ⟨12, _⟩ => ⟨S20000000, .i32⟩
  | .hbm, ⟨13, _⟩ => ⟨S20000000, .i32⟩
  | .hbm, ⟨14, _⟩ => ⟨S20000000x1, .i32⟩
  | .hbm, ⟨15, _⟩ => ⟨S20000000, .f32⟩
  | .hbm, ⟨16, _⟩ => ⟨S1x20000000, .i32⟩
  | .hbm, ⟨17, _⟩ => ⟨S20000000, .i32⟩
  | .hbm, ⟨18, _⟩ => ⟨S_, .i32⟩
  | .hbm, ⟨19, _⟩ => ⟨S20000000, .i32⟩
  | .hbm, ⟨20, _⟩ => ⟨S20000000, .i1⟩
  | .hbm, ⟨21, _⟩ => ⟨S_, .i32⟩
  | .hbm, ⟨22, _⟩ => ⟨S20000000, .i32⟩
  | .hbm, ⟨23, _⟩ => ⟨S20000000, .i32⟩
  | .hbm, ⟨24, _⟩ => ⟨S20000000, .i32⟩
  | .hbm, ⟨25, _⟩ => ⟨S20000000x1, .i32⟩
  | .hbm, ⟨26, _⟩ => ⟨S20000000, .f32⟩
  | .hbm, ⟨27, _⟩ => ⟨S250x80000, .f32⟩
  | .hbm, ⟨28, _⟩ => ⟨S250x80000, .f32⟩
  | .hbm, ⟨29, _⟩ => ⟨S250x80000, .f32⟩
  | .hbm, ⟨30, _⟩ => ⟨S250x80000, .f32⟩
  | .hbm, ⟨31, _⟩ => ⟨S20000000, .f32⟩
  | .local _ .vmem, ⟨0, _⟩ => ⟨S250x3200, .f32⟩
  | .local _ .vmem, ⟨1, _⟩ => ⟨S250x3200, .f32⟩
  | .local _ .vmem, ⟨2, _⟩ => ⟨S250x3200, .f32⟩
  | .local _ .vmem, ⟨3, _⟩ => ⟨S250x3200, .f32⟩
  | .local _ .vmem, ⟨4, _⟩ => ⟨S250x3200, .f32⟩
  | .local _ .vmem, ⟨5, _⟩ => ⟨S250x3200, .f32⟩
  | .local _ .vmem, ⟨6, _⟩ => ⟨S250x3200, .f32⟩
  | .local _ .vmem, ⟨7, _⟩ => ⟨S250x3200, .f32⟩
  | _, _ => ⟨S2x20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S250x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S250x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S250x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S250x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x20000000_S1x20000000_0_0 : S2x20000000.Slices ![0, 0] S1x20000000
  shapeCasts_S1x20000000_S20000000 : S1x20000000.ShapeCasts S20000000
  bcast_S_S20000000 : S_.BroadcastsInDim S20000000 (![] : Fin 0 → Fin S20000000.rank)
  bcast_S20000000_S20000000x1_0 : S20000000.BroadcastsInDim S20000000x1 (![0] : Fin 1 → Fin S20000000x1.rank)
  slices_S2x20000000_S1x20000000_1_0 : S2x20000000.Slices ![1, 0] S1x20000000
  shapeCasts_S20000000_S250x80000 : S20000000.ShapeCasts S250x80000
  inb_S250x3200_S250x3200_0_0 : ∀ a, (![0, 0] : Fin 2 → Nat) a + S250x3200.size a ≤ S250x3200.size a
  h_S250x3200 : 0 < S250x3200.numel
  shapeCasts_S250x3200_S250x3200 : S250x3200.ShapeCasts S250x3200
  shapeCasts_S250x80000_S20000000 : S250x80000.ShapeCasts S20000000
  gather_S1000000_S20000000x1_S20000000_n_0_n_n_0_1_1_wf : GatherDims.WF S1000000 S20000000x1 S20000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S250x3200.size a ≤ S250x80000.size a
  hwx0_0 : ∀ i : grid0.Coords, EltTy.bits .f32 = 32 ∨ (Rect.block (s := S250x80000) S250x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S250x3200.size a ≤ S250x80000.size a
  hwx0_1 : ∀ i : grid0.Coords, EltTy.bits .f32 = 32 ∨ (Rect.block (s := S250x80000) S250x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S250x3200.size a ≤ S250x80000.size a
  hwx0_2 : ∀ i : grid0.Coords, EltTy.bits .f32 = 32 ∨ (Rect.block (s := S250x80000) S250x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S250x3200.size a ≤ S250x80000.size a
  hwx0_3 : ∀ i : grid0.Coords, EltTy.bits .f32 = 32 ∨ (Rect.block (s := S250x80000) S250x3200.size (cc0_transform_3 i) (hinb0_3 i)).WholeWords (EltTy.packing .f32)

variable [Facts₀]

def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf

abbrev win0_0 : Pipeline.Window sig grid0 :=
  Pipeline.Window.ofSpec (Memref.whole main_v20) S250x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S250x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S250x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S250x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x20000000 : Shape := ⟨2, ![2, 20000000]⟩
abbrev S20000000 : Shape := ⟨1, ![20000000]⟩
abbrev S1000000 : Shape := ⟨1, ![1000000]⟩
abbrev S1x20000000 : Shape := ⟨2, ![1, 20000000]⟩
abbrev S_ : Shape := ⟨0, ![]⟩
abbrev S20000000x1 : Shape := ⟨2, ![20000000, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x20000000, .i32⟩
  | .hbm, ⟨1, _⟩ => ⟨S20000000, .f32⟩
  | .hbm, ⟨2, _⟩ => ⟨S1000000, .i1⟩
  | .hbm, ⟨3, _⟩ => ⟨S1000000, .i1⟩
  | .hbm, ⟨4, _⟩ => ⟨S1000000, .f32⟩
  | .hbm, ⟨5, _⟩ => ⟨S1x20000000, .i32⟩
  | .hbm, ⟨6, _⟩ => ⟨S20000000, .i32⟩
  | .hbm, ⟨7, _⟩ => ⟨S_, .i32⟩
  | .hbm, ⟨8, _⟩ => ⟨S20000000, .i32⟩
  | .hbm, ⟨9, _⟩ => ⟨S20000000, .i1⟩
  | .hbm, ⟨10, _⟩ => ⟨S_, .i32⟩
  | .hbm, ⟨11, _⟩ => ⟨S20000000, .i32⟩
  | .hbm, ⟨12, _⟩ => ⟨S20000000, .i32⟩
  | .hbm, ⟨13, _⟩ => ⟨S20000000, .i32⟩
  | .hbm, ⟨14, _⟩ => ⟨S20000000x1, .i32⟩
  | .hbm, ⟨15, _⟩ => ⟨S20000000, .f32⟩
  | .hbm, ⟨16, _⟩ => ⟨S1x20000000, .i32⟩
  | .hbm, ⟨17, _⟩ => ⟨S20000000, .i32⟩
  | .hbm, ⟨18, _⟩ => ⟨S_, .i32⟩
  | .hbm, ⟨19, _⟩ => ⟨S20000000, .i32⟩
  | .hbm, ⟨20, _⟩ => ⟨S20000000, .i1⟩
  | .hbm, ⟨21, _⟩ => ⟨S_, .i32⟩
  | .hbm, ⟨22, _⟩ => ⟨S20000000, .i32⟩
  | .hbm, ⟨23, _⟩ => ⟨S20000000, .i32⟩
  | .hbm, ⟨24, _⟩ => ⟨S20000000, .i32⟩
  | .hbm, ⟨25, _⟩ => ⟨S20000000x1, .i32⟩
  | .hbm, ⟨26, _⟩ => ⟨S20000000, .f32⟩
  | .hbm, ⟨27, _⟩ => ⟨S20000000, .f32⟩
  | .hbm, ⟨28, _⟩ => ⟨S20000000, .f32⟩
  | _, _ => ⟨S2x20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  slices_S2x20000000_S1x20000000_0_0 : S2x20000000.Slices ![0, 0] S1x20000000
  shapeCasts_S1x20000000_S20000000 : S1x20000000.ShapeCasts S20000000
  bcast_S_S20000000 : S_.BroadcastsInDim S20000000 (![] : Fin 0 → Fin S20000000.rank)
  bcast_S20000000_S20000000x1_0 : S20000000.BroadcastsInDim S20000000x1 (![0] : Fin 1 → Fin S20000000x1.rank)
  slices_S2x20000000_S1x20000000_1_0 : S2x20000000.Slices ![1, 0] S1x20000000
  gather_S1000000_S20000000x1_S20000000_n_0_n_n_0_1_1_wf : GatherDims.WF S1000000 S20000000x1 S20000000 [] [0] [] [0] [] 1 ![1]

variable [Facts₀]

def gather_S1000000_S20000000x1_S20000000_n_0_n_n_0_1_1 : GatherDims S1000000 S20000000x1 S20000000 where
  offsetDims := []
  collapsedSliceDims := [0]
  operandBatchingDims := []
  startIndicesBatchingDims := []
  startIndexMap := [0]
  indexVectorDim := 1
  sliceSizes := ![1]
  wf := gather_S1000000_S20000000x1_S20000000_n_0_n_n_0_1_1_wf

class Facts : Prop extends Facts₀ where

variable [Facts]
-- ==== Proof.LibProd3.lean ====
/-
  The product of three arrays taken entry by entry and grouped to the left, `(x · y) · z`, and the fact that it does not
  care how the arrays are laid out: a change of shape keeps every entry and only renames its position (the entry at a
  given row-major position stays at that position), so laying the three arrays out under another shape, multiplying
  them there entry by entry and laying the result back out under the first shape gives the product of the three arrays
  themselves. No property of the multiplication is used — the statement holds at every float interpretation, for
  finite and infinite entries alike — and no index is computed: the change of shape moves inside the product by
  definition, and a change of shape there and back is the identity.
-/
import Idealize.ShloMosaic.Lib.Pipeline.Value

noncomputable section

namespace Cert.Prod3

open Idealize.ShloMosaic

variable {F : FTy → Type} [FloatOps F] {s t : Shape} {φ : FTy}

/-- `(x · y) · z`, entry by entry. -/
def prod3 (x y z : FVec F s φ) : FVec F s φ := mulf (mulf x y) z

/-- The product read at one position. -/
theorem prod3_apply (x y z : FVec F s φ) (i : s.Idx) :
    prod3 x y z i = FloatOps.mulf (FloatOps.mulf (x i) (y i)) (z i) := rfl

/-- A change of shape moves inside the product: the entry of the reshaped product at a position is the product of
    the three entries that the change of shape brings to that position. -/
theorem shapeCast_prod3 (x y z : FVec F s φ) (h : s.ShapeCasts t) :
    shapeCast t (prod3 x y z) h = prod3 (shapeCast t x h) (shapeCast t y h) (shapeCast t z h) := rfl

/-- The product taken under another shape and brought back is the product. -/
theorem prod3_reshaped (x y z : FVec F s φ) (h : s.ShapeCasts t) (h' : t.ShapeCasts s) :
    shapeCast s (prod3 (shapeCast t x h) (shapeCast t y h) (shapeCast t z h)) h' = prod3 x y z := by
  rw [← shapeCast_prod3, shapeCast_shapeCast]

end Cert.Prod3

end
-- ==== Proof.RegionArray.lean ====
/-
  What the region leaves in its output array. The three staged arrays and the output array are all [250, 80000], cut
  into 25 blocks of 3200 whole columns: grid point `t` stages columns 3200·t … 3200·t + 3199 of every row, of all four
  arrays alike. The body multiplies its three loaded blocks entry by entry, `(x0 · x1) · x2`, and stores the result
  over the whole output block, so what point `t` writes back is block `t` of the entrywise product of the three whole
  arrays; the 25 blocks tile the array (column `q` lies in block `q / 3200`), so after the region the output array
  is that product everywhere.
-/
import proofs.«151326_j16801912062155_1_alg».proof.Proof.Gen.KernelIdeal.Frame
import proofs.«151326_j16801912062155_1_alg».proof.Proof.LibProd3
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Cert.Prod3

variable {F : FTy → Type} [FloatOps F]
variable (m : (ℓ : Loc nD τ sig) → Buf (Elt F) ℓ) (ρ : Dev nD → PrngReg)

/-- The body's loads and its store start at the block's corner. -/
theorem corner : (![0, 0] : Fin 2 → Nat) = fun _ => 0 := funext fun a => by fin_cases a <;> rfl

/-- The body's value is the product of its three loaded blocks: its shape casts are to the block's own shape. -/
theorem body_eq (x0 x1 x2 : Vec F S250x3200 .f32) :
    k0_pay1 x0 x1 x2 = prod3 (s := S250x3200) (φ := .f32) x0 x1 x2 := by
  show mulf (mulf (shapeCast S250x3200 x0 shapeCasts_S250x3200_S250x3200) (shapeCast S250x3200 x1 shapeCasts_S250x3200_S250x3200))
    (shapeCast S250x3200 x2 shapeCasts_S250x3200_S250x3200) = _
  rw [shapeCast_self, shapeCast_self, shapeCast_self]
  rfl

/-- All four windows take the same block at every grid point: block row 0, and a block column that stays in 0 … 24. -/
theorem same_block : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- Every block column 0 … 24 (in block row 0) is some grid point's. -/
theorem every_block : ∀ q : Fin 25, ∃ t : Fin cfg0.N, win0_3.index t = ![0, q.val] :=
  (by decide +kernel : ∀ q : Fin 25, ∃ t : Fin grid0.N, win0_3.index t = ![0, q.val])

/-- What point `t` writes back is block `t` of the product of the three staged arrays. -/
theorem flushed_eq (c : Dev nD) (t : Fin cfg0.N) :
    (dats m 0 c).flushed 3 t = ((cfg0.win 3).blk t).view.read (Elt F)
      (prod3 (s := S250x80000) (φ := .f32) (V m c main_v20) (V m c main_v21) (V m c main_v22)) := by
  show (cfg0.win 3).cut (grid0.coords t) ((dats m 0 c).after 3 t) = _
  rw [after0_3]
  unfold out0_3
  rw [View.canon_unit_zero corner]
  simp only [View.ld_unit_zero (S := S250x3200) corner]
  rw [body_eq]
  obtain ⟨e0, e1, e2, e3, e4, e5⟩ := same_block t
  funext j
  show FloatOps.mulf (FloatOps.mulf (V m c main_v20 (((cfg0.win 0).blk t).view.emb j)) (V m c main_v21 (((cfg0.win 1).blk t).view.emb j)))
      (V m c main_v22 (((cfg0.win 2).blk t).view.emb j))
    = FloatOps.mulf (FloatOps.mulf (V m c main_v20 (((cfg0.win 3).blk t).view.emb j)) (V m c main_v21 (((cfg0.win 3).blk t).view.emb j)))
      (V m c main_v22 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 250 + 1 * (j 0).val = win0_3.index t (0 : Fin 2) * 250 + 1 * (j 0).val; omega
    | ⟨1, _⟩ => show win0_0.index t (1 : Fin 2) * 3200 + 1 * (j 1).val = win0_3.index t (1 : Fin 2) * 3200 + 1 * (j 1).val; omega
  have h1 : ((cfg0.win 1).blk t).view.emb j = ((cfg0.win 3).blk t).view.emb j := by
    funext a; apply Fin.ext
    match a with
    | ⟨0, _⟩ => show win0_1.index t (0 : Fin 2) * 250 + 1 * (j 0).val = win0_3.index t (0 : Fin 2) * 250 + 1 * (j 0).val; omega
    | ⟨1, _⟩ => show win0_1.index t (1 : Fin 2) * 3200 + 1 * (j 1).val = win0_3.index t (1 : Fin 2) * 3200 + 1 * (j 1).val; omega
  have h2 : ((cfg0.win 2).blk t).view.emb j = ((cfg0.win 3).blk t).view.emb j := by
    funext a; apply Fin.ext
    match a with
    | ⟨0, _⟩ => show win0_2.index t (0 : Fin 2) * 250 + 1 * (j 0).val = win0_3.index t (0 : Fin 2) * 250 + 1 * (j 0).val; omega
    | ⟨1, _⟩ => show win0_2.index t (1 : Fin 2) * 3200 + 1 * (j 1).val = win0_3.index t (1 : Fin 2) * 3200 + 1 * (j 1).val; omega
  rw [h0, h1, h2]

/-- An entry of the output array lies in point `t`'s block iff, on each axis, its coordinate lies in the block's range. -/
theorem mem_block (t : Fin cfg0.N) (i : S250x80000.Idx) :
    i ∈ ((cfg0.win 3).blk t).view.set ↔ ∀ a : Fin 2, win0_3.index t a * S250x3200.size a ≤ (i a).val
      ∧ (i a).val < win0_3.index t a * S250x3200.size a + S250x3200.size a := by
  show i ∈ ((View.whole main_v23).slice (win0_3.rect t)).set ↔ _
  rw [View.set_slice_whole, Rect.mem_set_unit]
  exact Iff.rfl

/-- The blocks tile the array: the entry in column `q` lies in the block of the point whose block column is `q / 3200`. -/
theorem covered (i : S250x80000.Idx) :
    ∃ t : Fin cfg0.N, (cfg0.win 3).flush t = true ∧ i ∈ ((cfg0.win 3).blk t).view.set := by
  have hi0 : (i 0).val < 250 := (i 0).isLt
  have hi1 : (i 1).val < 80000 := (i 1).isLt
  obtain ⟨t, ht⟩ := every_block ⟨(i 1).val / 3200, by omega⟩
  have q0 : win0_3.index t (0 : Fin 2) = 0 := congrFun ht 0
  have q1 : win0_3.index t (1 : Fin 2) = (i 1).val / 3200 := congrFun ht 1
  refine ⟨t, flush0_3 t, ?_⟩
  rw [mem_block]
  intro a
  match a with
  | ⟨0, _⟩ => show win0_3.index t (0 : Fin 2) * 250 ≤ (i 0).val ∧ (i 0).val < win0_3.index t (0 : Fin 2) * 250 + 250; omega
  | ⟨1, _⟩ => show win0_3.index t (1 : Fin 2) * 3200 ≤ (i 1).val ∧ (i 1).val < win0_3.index t (1 : Fin 2) * 3200 + 3200; omega

/-- After the region the output array is the product of the three staged arrays, entry by entry. -/
theorem array_eq (c : Dev nD) :
    (dats m 0 c).arrAt 3 cfg0.N = prod3 (s := S250x80000) (φ := .f32) (V m c main_v20) (V m c main_v21) (V m c main_v22) :=
  (dats m 0 c).arrAt_eq_of_cover 3 _ (fun t _ => flushed_eq m c t) covered

end Cert.KernelIdeal.Region

end
-- ==== Proof.HostLines.lean ====
/-
  The host lines around the region. Before it, three [20000000] arrays are laid out as [250, 80000] for the region to
  stage: the edge values themselves, and the two arrays of keep factors looked up at the source and at the target node
  of each edge (the negation of the drop flags, as numbers, gathered at the wrapped node indices). The two looked-up
  arrays are the very same operations, line for line, as the reference's, so they are named by the reference's own
  stages and never opened. After the region, its [250, 80000] output array is laid back out as [20000000]: that is
  the program's result.
-/
import proofs.«151326_j16801912062155_1_alg».proof.Proof.Gen.KernelIdeal.Frame
import proofs.«151326_j16801912062155_1_alg».proof.Proof.Gen.ReferenceIdeal.Read
import Idealize.ShloMosaic.Lib.StableHlo.Run

noncomputable section

namespace Cert.KernelIdeal.HostLines

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 2000000 in
/-- The first staged array is the edge values, laid out as [250, 80000]. -/
theorem staged_values (c : Dev nD) :
    (V m c main_v20 : S250x80000.Idx → Elt F .f32)
      = shapeCast S250x80000 (m ((c : Thread nD τ).loc main_arg1)) shapeCasts_S20000000_S250x80000 := by
  show StableHlo.after hostOps0 (fun b => m (c, b)) (Proc.devRef .tc main_v20) = _
  after_results
  rfl

set_option maxHeartbeats 2000000 in
/-- The second staged array is the keep factors at the edges' source nodes, laid out as [250, 80000]. -/
theorem staged_src (c : Dev nD) :
    (V m c main_v21 : S250x80000.Idx → Elt F .f32)
      = shapeCast S250x80000 (Cert.ReferenceIdeal.Read.val_main_v10 (F := F) (m ((c : Thread nD τ).loc main_arg0))
          (m ((c : Thread nD τ).loc main_arg2))) shapeCasts_S20000000_S250x80000 := by
  show StableHlo.after hostOps0 (fun b => m (c, b)) (Proc.devRef .tc main_v21) = _
  after_results
  rfl

set_option maxHeartbeats 2000000 in
/-- The third staged array is the keep factors at the edges' target nodes, laid out as [250, 80000]. -/
theorem staged_dst (c : Dev nD) :
    (V m c main_v22 : S250x80000.Idx → Elt F .f32)
      = shapeCast S250x80000 (Cert.ReferenceIdeal.Read.val_main_v19 (F := F) (m ((c : Thread nD τ).loc main_arg0))
          (m ((c : Thread nD τ).loc main_arg2))) shapeCasts_S20000000_S250x80000 := by
  show StableHlo.after hostOps0 (fun b => m (c, b)) (Proc.devRef .tc main_v22) = _
  after_results
  rfl

/-- The program's result is the region's output array, laid back out as [20000000]. -/
theorem result_eq (c : Dev nD) :
    (Pipeline.afterTail₀ cfgs (dats m) 0 (V0 m) [hostOps1] c main_v24 : S20000000.Idx → Elt F .f32)
      = shapeCast S20000000 ((dats m 0 c).arrAt 3 cfg0.N) shapeCasts_S250x80000_S20000000 := by
  unfold Pipeline.afterTail₀
  show StableHlo.after hostOps1 _ (Proc.devRef .tc main_v24) = _
  after_results
  rw [Pipeline.withArrays_arr spec0 launch0.win.arr_inj c _ _ 3]
  rfl

end Cert.KernelIdeal.HostLines

end
-- ==== Proof.KernelRun.lean ====
/-
  The kernel's run, read whole. Its result is the region's output array laid out as [20000000]; that array is the
  entrywise product of the three staged arrays; and those are the edge values and the two arrays of keep factors, each
  laid out as [250, 80000]. A product taken under another layout and brought back is the product itself, so the result
  is, edge by edge, (value · keep at the source node) · keep at the target node — with the two arrays of keep factors
  named by the reference's own stages.
-/
import proofs.«151326_j16801912062155_1_alg».proof.Proof.RegionArray
import proofs.«151326_j16801912062155_1_alg».proof.Proof.HostLines
import proofs.«151326_j16801912062155_1_alg».proof.Proof.LibProd3

noncomputable section

namespace Cert.KernelIdeal.Whole

open Cert.KernelIdeal Cert.KernelIdeal.Gen Idealize.ShloMosaic Idealize.ShloMosaic.TcCoe Idealize.SL.Sem
open Cert.Prod3

variable {F : FTy → Type} [FloatOps F]
variable (m : (ℓ : Loc nD τ sig) → Buf (Elt F) ℓ) (ρ : Dev nD → PrngReg)

/-- The result array is the product, edge by edge, of the edge values with the keep factors at the two end nodes. -/
theorem value (c : Dev nD) :
    (Pipeline.afterTail₀ cfgs (dats m) 0 (V0 m) [hostOps1] c main_v24 : S20000000.Idx → Elt F .f32)
      = prod3 (s := S20000000) (φ := .f32) (m ((c : Thread nD τ).loc main_arg1))
          (Cert.ReferenceIdeal.Read.val_main_v10 (F := F) (m ((c : Thread nD τ).loc main_arg0)) (m ((c : Thread nD τ).loc main_arg2)))
          (Cert.ReferenceIdeal.Read.val_main_v19 (F := F) (m ((c : Thread nD τ).loc main_arg0)) (m ((c : Thread nD τ).loc main_arg2))) := by
  rw [HostLines.result_eq, Region.array_eq, HostLines.staged_values, HostLines.staged_src, HostLines.staged_dst]
  exact prod3_reshaped _ _ _ _ _

/-- Every weakly fair execution of the kernel's @main terminates with the result array at that product and the
    argument arrays as launched. -/
theorem run : θ_run defs (onTc (τ := τ) (main (F := F))) ⟨m, fun _ => 0, ρ⟩ fun r => ∀ c : Dev nD,
      r.2.mem ((c : Thread nD τ).loc main_v24)
        = prod3 (s := S20000000) (φ := .f32) (m ((c : Thread nD τ).loc main_arg1))
          (Cert.ReferenceIdeal.Read.val_main_v10 (F := F) (m ((c : Thread nD τ).loc main_arg0)) (m ((c : Thread nD τ).loc main_arg2)))
          (Cert.ReferenceIdeal.Read.val_main_v19 (F := F) (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v24 (Pipeline.mem_restRefs_of main_v24 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  Node dropout over the edges of a graph: for each of 20,000,000 edges, out[e] = (values[e] · keep[src e]) · keep[dst e],
  where keep is 1 at a node that is kept and 0 at a node that is dropped (the negation of the drop flags, as numbers),
  looked up at the edge's two end nodes (an index below zero wraps round by the number of nodes, 1,000,000).

  The reference computes exactly that over the flat [20000000] arrays. The kernel looks the two arrays of keep factors
  up with the same host operations, line for line, lays the values and the two looked-up arrays out as [250, 80000],
  multiplies the three of them entry by entry in 25 column blocks of 3200 columns each, and lays the result back out
  as [20000000]. A change of layout keeps every entry and only renames its position, the blocks tile the array, and the
  product is grouped the same way on both sides, so the two results are the same function of the arguments — for every
  extended real, finite or not: no law of arithmetic is used, and the precondition is not needed for the values.

  The pieces: LibProd3 (the product commutes with a change of layout and back), RegionArray (the region's output array
  is the product of the three staged arrays), HostLines (what the host lines before the region stage, and what the line
  after it returns), KernelRun (the kernel's run read whole). Here: the reference's run ends at the same product, and
  the five claims.
-/
import proofs.«151326_j16801912062155_1_alg».proof.Defs
import proofs.«151326_j16801912062155_1_alg».proof.Proof.Gen.Kernel
import proofs.«151326_j16801912062155_1_alg».proof.Proof.Gen.Kernel.Skeleton
import proofs.«151326_j16801912062155_1_alg».proof.Proof.Gen.Kernel.Launch
import proofs.«151326_j16801912062155_1_alg».proof.Proof.Gen.Kernel.Points
import proofs.«151326_j16801912062155_1_alg».proof.Proof.Gen.Kernel.Frame
import proofs.«151326_j16801912062155_1_alg».proof.Proof.Gen.KernelIdeal
import proofs.«151326_j16801912062155_1_alg».proof.Proof.Gen.KernelIdeal.Skeleton
import proofs.«151326_j16801912062155_1_alg».proof.Proof.Gen.KernelIdeal.Launch
import proofs.«151326_j16801912062155_1_alg».proof.Proof.Gen.KernelIdeal.Points
import proofs.«151326_j16801912062155_1_alg».proof.Proof.Gen.KernelIdeal.Frame
import proofs.«151326_j16801912062155_1_alg».proof.Proof.Gen.ReferenceIdeal
import proofs.«151326_j16801912062155_1_alg».proof.Proof.Gen.ReferenceIdeal.Run
import proofs.«151326_j16801912062155_1_alg».proof.Proof.Gen.ReferenceIdeal.Read
import proofs.«151326_j16801912062155_1_alg».proof.Proof.Gen.Pre_finite_inputs
import proofs.«151326_j16801912062155_1_alg».proof.Proof.KernelRun
import Idealize.ShloMosaic.Adequacy
import Idealize.ShloMosaic.Init

noncomputable section

namespace Cert.Proof

open Idealize.ShloMosaic Idealize.ShloMosaic.TcCoe Idealize.SL.Sem

/-- The reference's last stage is the product of the values with its two looked-up arrays, grouped to the left: its two
    multiplications, one after the other. -/
theorem reference_value (x0 : (⟨Cert.ReferenceIdeal.S2x20000000, .i32⟩ : BufTy).Contents (Elt Ideal))
    (x1 : (⟨Cert.ReferenceIdeal.S20000000, .f32⟩ : BufTy).Contents (Elt Ideal))
    (x2 : (⟨Cert.ReferenceIdeal.S1000000, .i1⟩ : BufTy).Contents (Elt Ideal)) :
    Cert.ReferenceIdeal.Read.val_main_v21 (F := Ideal) x0 x1 x2
      = Cert.Prod3.prod3 (F := Ideal) (s := Cert.ReferenceIdeal.S20000000) (φ := .f32) x1
          (Cert.ReferenceIdeal.Read.val_main_v10 (F := Ideal) x0 x2) (Cert.ReferenceIdeal.Read.val_main_v19 (F := Ideal) x0 x2) := rfl

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it over the extended reals. -/
theorem preserves : Cert.preserves_Kernel_KernelIdeal := trivial

/-- From arguments that agree, both programs end with the product, edge by edge, of the edge value with the keep
    factors at the edge's two end nodes. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  exact reference_value _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
